-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x4 : Shape := ⟨2, ![1048576, 4]⟩
abbrev S128x4 : Shape := ⟨2, ![128, 4]⟩
abbrev S128x1 : Shape := ⟨2, ![128, 1]⟩
abbrev S8x128 : Shape := ⟨2, ![8, 128]⟩
abbrev S8x1 : Shape := ⟨2, ![8, 1]⟩
abbrev S_ : Shape := ⟨0, ![]⟩
abbrev S8x78 : Shape := ⟨2, ![8, 78]⟩

class Facts : Prop where
  bcast_S_S1048576x4 : S_.BroadcastsInDim S1048576x4 (![] : Fin 0 → Fin S1048576x4.rank)
  reducesTo_S1048576x4_S_d0_1 : S1048576x4.ReducesTo [0, 1] S_
  h_S_ : 0 < S_.numel
  bcast_S_S128x4 : S_.BroadcastsInDim S128x4 (![] : Fin 0 → Fin S128x4.rank)
  reducesTo_S128x4_S_d0_1 : S128x4.ReducesTo [0, 1] S_
  bcast_S_S128x1 : S_.BroadcastsInDim S128x1 (![] : Fin 0 → Fin S128x1.rank)
  reducesTo_S128x1_S_d0_1 : S128x1.ReducesTo [0, 1] S_
  bcast_S_S8x128 : S_.BroadcastsInDim S8x128 (![] : Fin 0 → Fin S8x128.rank)
  reducesTo_S8x128_S_d0_1 : S8x128.ReducesTo [0, 1] S_
  bcast_S_S8x1 : S_.BroadcastsInDim S8x1 (![] : Fin 0 → Fin S8x1.rank)
  reducesTo_S8x1_S_d0_1 : S8x1.ReducesTo [0, 1] S_
  slices_S8x128_S8x78_0_50 : S8x128.Slices ![0, 50] S8x78
  bcast_S_S8x78 : S_.BroadcastsInDim S8x78 (![] : Fin 0 → Fin S8x78.rank)
  reducesTo_S8x78_S_d0_1 : S8x78.ReducesTo [0, 1] S_

variable [Facts]

def fn_part1 {F : FTy → Type} [FloatOps F] (main_arg3 : FVec F S8x128 .f32) (main_arg4 : FVec F S8x1 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S8x1 .f32 := Host.absf main_arg4
  let main_cst_6 : FVec F S_ .f32 := constant S_ .f32 0x7F800000#32
  let main_v20 : FVec F S8x1 .f32 := broadcastInDim S8x1 ![] bcast_S_S8x1 main_cst_6
  let main_v21 : IVec S8x1 1 := cmpf .olt main_v19 main_v20
  let main_c_7 : IVec S_ 1 := constantI S_ 1 1#1
  let main_v22 : IVec S_ 1 := (fun x v => Host.reduce IntOp.andi x v reducesTo_S8x1_S_d0_1 h_S_) main_v21 main_c_7
  let main_v23 : IVec S_ 1 := andi main_v18 main_v22
  let main_v24 : FVec F S8x78 .f32 := (extractStridedSlice S8x78 ![0, 50] · slices_S8x128_S8x78_0_50) main_arg3
  let main_cst_8 : FVec F S_ .f32 := constant S_ .f32 0x00000000#32
  let main_v25 : FVec F S8x78 .f32 := broadcastInDim S8x78 ![] bcast_S_S8x78 main_cst_8
  let main_v26 : IVec S8x78 1 := cmpf .oeq main_v24 main_v25
  let main_c_9 : IVec S_ 1 := constantI S_ 1 1#1
  let main_v27 : IVec S_ 1 := (fun x v => Host.reduce IntOp.andi x v reducesTo_S8x78_S_d0_1 h_S_) main_v26 main_c_9
  let main_v28 : IVec S_ 1 := andi main_v23 main_v27
  main_v28

def fn {F : FTy → Type} [FloatOps F] (main_arg0 : FVec F S1048576x4 .f32) (main_arg1 : FVec F S128x4 .f32) (main_arg2 : FVec F S128x1 .f32) (main_arg3 : FVec F S8x128 .f32) (main_arg4 : FVec F S8x1 .f32) : IVec S_ 1 :=
  let main_v0 : FVec F S1048576x4 .f32 := Host.absf main_arg0
  let main_cst : FVec F S_ .f32 := constant S_ .f32 0x7F800000#32
  let main_v1 : FVec F S1048576x4 .f32 := broadcastInDim S1048576x4 ![] bcast_S_S1048576x4 main_cst
  let main_v2 : IVec S1048576x4 1 := cmpf .olt main_v0 main_v1
  let main_c : IVec S_ 1 := constantI S_ 1 1#1
  let main_v3 : IVec S_ 1 := (fun x v => Host.reduce IntOp.andi x v reducesTo_S1048576x4_S_d0_1 h_S_) main_v2 main_c
  let main_v4 : FVec F S128x4 .f32 := Host.absf main_arg1
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S128x1 .f32 := Host.absf main_arg2
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg3 main_arg4 main_v13 main_v16
-- ==== Kernel.lean ====
abbrev S1048576x4 : Shape := ⟨2, ![1048576, 4]⟩
abbrev S128x4 : Shape := ⟨2, ![128, 4]⟩
abbrev S128x1 : Shape := ⟨2, ![128, 1]⟩
abbrev S8x128 : Shape := ⟨2, ![8, 128]⟩
abbrev S8x1 : Shape := ⟨2, ![8, 1]⟩
abbrev S4x1048576 : Shape := ⟨2, ![4, 1048576]⟩
abbrev S64x4 : Shape := ⟨2, ![64, 4]⟩
abbrev S64x1 : Shape := ⟨2, ![64, 1]⟩
abbrev S2x64 : Shape := ⟨2, ![2, 64]⟩
abbrev S2x1 : Shape := ⟨2, ![2, 1]⟩
abbrev S2x1048576 : Shape := ⟨2, ![2, 1048576]⟩
abbrev S4x65536 : Shape := ⟨2, ![4, 65536]⟩
abbrev S2x65536 : Shape := ⟨2, ![2, 65536]⟩
abbrev S64x65536 : Shape := ⟨2, ![64, 65536]⟩
abbrev S1048576x2 : Shape := ⟨2, ![1048576, 2]⟩

abbrev nBuf : Space → Nat
  | .hbm => 16
  | .vmem => 8
  | .smem => 0
  | _ => 0

abbrev bufTy : (tb : Table) → Fin (tcTables nBuf tb) → BufTy
  | .hbm, ⟨0, _⟩ => ⟨S1048576x4, .f32⟩
  | .hbm, ⟨1, _⟩ => ⟨S128x4, .f32⟩
  | .hbm, ⟨2, _⟩ => ⟨S128x1, .f32⟩
  | .hbm, ⟨3, _⟩ => ⟨S8x128, .f32⟩
  | .hbm, ⟨4, _⟩ => ⟨S8x1, .f32⟩
  | .hbm, ⟨5, _⟩ => ⟨S4x1048576, .f32⟩
  | .hbm, ⟨6, _⟩ => ⟨S4x1048576, .bf16⟩
  | .hbm, ⟨7, _⟩ => ⟨S64x4, .f32⟩
  | .hbm, ⟨8, _⟩ => ⟨S64x4, .bf16⟩
  | .hbm, ⟨9, _⟩ => ⟨S64x1, .f32⟩
  | .hbm, ⟨10, _⟩ => ⟨S64x1, .bf16⟩
  | .hbm, ⟨11, _⟩ => ⟨S2x64, .f32⟩
  | .hbm, ⟨12, _⟩ => ⟨S2x64, .bf16⟩
  | .hbm, ⟨13, _⟩ => ⟨S2x1, .f32⟩
  | .hbm, ⟨14, _⟩ => ⟨S2x1048576, .f32⟩
  | .hbm, ⟨15, _⟩ => ⟨S1048576x2, .f32⟩
  | .local _ .vmem, ⟨0, _⟩ => ⟨S4x65536, .bf16⟩
  | .local _ .vmem, ⟨1, _⟩ => ⟨S4x65536, .bf16⟩
  | .local _ .vmem, ⟨2, _⟩ => ⟨S64x4, .bf16⟩
  | .local _ .vmem, ⟨3, _⟩ => ⟨S64x1, .bf16⟩
  | .local _ .vmem, ⟨4, _⟩ => ⟨S2x64, .bf16⟩
  | .local _ .vmem, ⟨5, _⟩ => ⟨S2x1, .f32⟩
  | .local _ .vmem, ⟨6, _⟩ => ⟨S2x65536, .f32⟩
  | .local _ .vmem, ⟨7, _⟩ => ⟨S2x65536, .f32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x65536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x65536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S1048576x4_S4x1048576_1_0 : S1048576x4.Transposes [1, 0] S4x1048576
  bitsLt_bf16_f32 : FTy.bits .bf16 < FTy.bits .f32
  slices_S128x4_S64x4_0_0 : S128x4.Slices ![0, 0] S64x4
  slices_S128x1_S64x1_0_0 : S128x1.Slices ![0, 0] S64x1
  slices_S8x128_S2x64_0_0 : S8x128.Slices ![0, 0] S2x64
  slices_S8x1_S2x1_0_0 : S8x1.Slices ![0, 0] S2x1
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S4x65536_S4x65536_0_0 : ∀ a, (![0, 0] : Fin 2 → Nat) a + S4x65536.size a ≤ S4x65536.size a
  h_S4x65536 : 0 < S4x65536.numel
  shapeCasts_S4x65536_S4x65536 : S4x65536.ShapeCasts S4x65536
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x65536 : S64x1.Broadcasts S64x65536
  inb_S2x64_S2x64_0_0 : ∀ a, (![0, 0] : Fin 2 → Nat) a + S2x64.size a ≤ S2x64.size a
  h_S2x64 : 0 < S2x64.numel
  shapeCasts_S2x64_S2x64 : S2x64.ShapeCasts S2x64
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x65536 : S2x1.Broadcasts S2x65536
  inb_S2x65536_S2x65536_0_0 : ∀ a, (![0, 0] : Fin 2 → Nat) a + S2x65536.size a ≤ S2x65536.size a
  h_S2x65536 : 0 < S2x65536.numel
  transposes_S2x1048576_S1048576x2_1_0 : S2x1048576.Transposes [1, 0] S1048576x2
  dot_S64x4_S4x65536_S64x65536_1_0_0_1_n_n_wf : DotDims.WF S64x4 S4x65536 S64x65536 [1] [0] [0] [1] [] []
  dot_S2x64_S64x65536_S2x65536_1_0_0_1_n_n_wf : DotDims.WF S2x64 S64x65536 S2x65536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x65536.size a ≤ S4x1048576.size a
  hwx0_0 : ∀ i : grid0.Coords, EltTy.bits .bf16 = 32 ∨ (Rect.block (s := S4x1048576) S4x65536.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .bf16 = 32 ∨ (Rect.block (s := S64x4) S64x4.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .bf16 = 32 ∨ (Rect.block (s := S64x1) S64x1.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64.size a ≤ S2x64.size a
  hwx0_3 : ∀ i : grid0.Coords, EltTy.bits .bf16 = 32 ∨ (Rect.block (s := S2x64) S2x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1.size a ≤ S2x1.size a
  hwx0_4 : ∀ i : grid0.Coords, EltTy.bits .f32 = 32 ∨ (Rect.block (s := S2x1) S2x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x65536.size a ≤ S2x1048576.size a
  hwx0_5 : ∀ i : grid0.Coords, EltTy.bits .f32 = 32 ∨ (Rect.block (s := S2x1048576) S2x65536.size (cc0_transform_5 i) (hinb0_5 i)).WholeWords (EltTy.packing .f32)

variable [Facts₀]

def dot_S64x4_S4x65536_S64x65536_1_0_0_1_n_n : DotDims S64x4 S4x65536 S64x65536 where
  lhsContracting := [1]
  rhsContracting := [0]
  lhsNonContracting := [0]
  rhsNonContracting := [1]
  lhsBatch := []
  rhsBatch := []
  wf := dot_S64x4_S4x65536_S64x65536_1_0_0_1_n_n_wf
def dot_S2x64_S64x65536_S2x65536_1_0_0_1_n_n : DotDims S2x64 S64x65536 S2x65536 where
  lhsContracting := [1]
  rhsContracting := [0]
  lhsNonContracting := [0]
  rhsNonContracting := [1]
  lhsBatch := []
  rhsBatch := []
  wf := dot_S2x64_S64x65536_S2x65536_1_0_0_1_n_n_wf

abbrev win0_0 : Pipeline.Window sig grid0 :=
  Pipeline.Window.ofSpec (Memref.whole main_v1) S4x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2x65536.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1048576x4 : Shape := ⟨2, ![1048576, 4]⟩
abbrev S128x4 : Shape := ⟨2, ![128, 4]⟩
abbrev S128x1 : Shape := ⟨2, ![128, 1]⟩
abbrev S8x128 : Shape := ⟨2, ![8, 128]⟩
abbrev S8x1 : Shape := ⟨2, ![8, 1]⟩
abbrev S4x1048576 : Shape := ⟨2, ![4, 1048576]⟩
abbrev S8x1048576 : Shape := ⟨2, ![8, 1048576]⟩
abbrev S4x4096 : Shape := ⟨2, ![4, 4096]⟩
abbrev S8x4096 : Shape := ⟨2, ![8, 4096]⟩
abbrev S128x4096 : Shape := ⟨2, ![128, 4096]⟩
abbrev S2x1048576 : Shape := ⟨2, ![2, 1048576]⟩
abbrev S1048576x2 : Shape := ⟨2, ![1048576, 2]⟩

abbrev nBuf : Space → Nat
  | .hbm => 9
  | .vmem => 8
  | .smem => 0
  | _ => 0

abbrev bufTy : (tb : Table) → Fin (tcTables nBuf tb) → BufTy
  | .hbm, ⟨0, _⟩ => ⟨S1048576x4, .f32⟩
  | .hbm, ⟨1, _⟩ => ⟨S128x4, .f32⟩
  | .hbm, ⟨2, _⟩ => ⟨S128x1, .f32⟩
  | .hbm, ⟨3, _⟩ => ⟨S8x128, .f32⟩
  | .hbm, ⟨4, _⟩ => ⟨S8x1, .f32⟩
  | .hbm, ⟨5, _⟩ => ⟨S4x1048576, .f32⟩
  | .hbm, ⟨6, _⟩ => ⟨S8x1048576, .f32⟩
  | .hbm, ⟨7, _⟩ => ⟨S2x1048576, .f32⟩
  | .hbm, ⟨8, _⟩ => ⟨S1048576x2, .f32⟩
  | .local _ .vmem, ⟨0, _⟩ => ⟨S4x4096, .f32⟩
  | .local _ .vmem, ⟨1, _⟩ => ⟨S4x4096, .f32⟩
  | .local _ .vmem, ⟨2, _⟩ => ⟨S128x4, .f32⟩
  | .local _ .vmem, ⟨3, _⟩ => ⟨S128x1, .f32⟩
  | .local _ .vmem, ⟨4, _⟩ => ⟨S8x128, .f32⟩
  | .local _ .vmem, ⟨5, _⟩ => ⟨S8x1, .f32⟩
  | .local _ .vmem, ⟨6, _⟩ => ⟨S8x4096, .f32⟩
  | .local _ .vmem, ⟨7, _⟩ => ⟨S8x4096, .f32⟩
  | _, _ => ⟨S1048576x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S1048576x4_S4x1048576_1_0 : S1048576x4.Transposes [1, 0] S4x1048576
  inb_S128x4_S128x4_0_0 : ∀ a, (![0, 0] : Fin 2 → Nat) a + S128x4.size a ≤ S128x4.size a
  h_S128x4 : 0 < S128x4.numel
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  inb_S128x1_S128x1_0_0 : ∀ a, (![0, 0] : Fin 2 → Nat) a + S128x1.size a ≤ S128x1.size a
  h_S128x1 : 0 < S128x1.numel
  broadcasts_S128x1_S128x4096 : S128x1.Broadcasts S128x4096
  inb_S8x128_S8x128_0_0 : ∀ a, (![0, 0] : Fin 2 → Nat) a + S8x128.size a ≤ S8x128.size a
  h_S8x128 : 0 < S8x128.numel
  inb_S8x1_S8x1_0_0 : ∀ a, (![0, 0] : Fin 2 → Nat) a + S8x1.size a ≤ S8x1.size a
  h_S8x1 : 0 < S8x1.numel
  broadcasts_S8x1_S8x4096 : S8x1.Broadcasts S8x4096
  inb_S8x4096_S8x4096_0_0 : ∀ a, (![0, 0] : Fin 2 → Nat) a + S8x4096.size a ≤ S8x4096.size a
  h_S8x4096 : 0 < S8x4096.numel
  slices_S8x1048576_S2x1048576_0_0 : S8x1048576.Slices ![0, 0] S2x1048576
  transposes_S2x1048576_S1048576x2_1_0 : S2x1048576.Transposes [1, 0] S1048576x2
  dot_S128x4_S4x4096_S128x4096_1_0_0_1_n_n_wf : DotDims.WF S128x4 S4x4096 S128x4096 [1] [0] [0] [1] [] []
  dot_S8x128_S128x4096_S8x4096_1_0_0_1_n_n_wf : DotDims.WF S8x128 S128x4096 S8x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096.size a ≤ S4x1048576.size a
  hwx0_0 : ∀ i : grid0.Coords, EltTy.bits .f32 = 32 ∨ (Rect.block (s := S4x1048576) S4x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S8x1.size a
  hwx0_4 : ∀ i : grid0.Coords, EltTy.bits .f32 = 32 ∨ (Rect.block (s := S8x1) S8x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x4096.size a ≤ S8x1048576.size a
  hwx0_5 : ∀ i : grid0.Coords, EltTy.bits .f32 = 32 ∨ (Rect.block (s := S8x1048576) S8x4096.size (cc0_transform_5 i) (hinb0_5 i)).WholeWords (EltTy.packing .f32)

variable [Facts₀]

def dot_S128x4_S4x4096_S128x4096_1_0_0_1_n_n : DotDims S128x4 S4x4096 S128x4096 where
  lhsContracting := [1]
  rhsContracting := [0]
  lhsNonContracting := [0]
  rhsNonContracting := [1]
  lhsBatch := []
  rhsBatch := []
  wf := dot_S128x4_S4x4096_S128x4096_1_0_0_1_n_n_wf
def dot_S8x128_S128x4096_S8x4096_1_0_0_1_n_n : DotDims S8x128 S128x4096 S8x4096 where
  lhsContracting := [1]
  rhsContracting := [0]
  lhsNonContracting := [0]
  rhsNonContracting := [1]
  lhsBatch := []
  rhsBatch := []
  wf := dot_S8x128_S128x4096_S8x4096_1_0_0_1_n_n_wf

abbrev win0_0 : Pipeline.Window sig grid0 :=
  Pipeline.Window.ofSpec (Memref.whole main_v0) S4x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Net.lean ====
/-
  The two-layer network both programs compute, as one function of the five argument arrays, and the law that joins them.

  For a batch row b and an action a the result is
      (∑ over hidden units k of w2[a,k] · max((∑ over the four features j of w1[k,j] · x[b,j]) + b1[k], 0)) + b2[a].
  One program sums over the first 64 hidden units, the other over all 128. When the columns of w2 from 64 on are zero the
  two sums agree: every dropped term is 0 · (something), which is 0 on the extended reals whatever the other factor is.
  Also here: the layout facts used on both sides (a slice from the origin, a column spread along the lanes).
-/
import Idealize.ShloMosaic.PureOps.Ideal
import Idealize.ShloMosaic.Lib.ValueIdx
import Idealize.ShloMosaic.Lib.ValueLayout
import Idealize.ShloMosaic.Lib.Pipeline.Value

noncomputable section

namespace Cert.Net

open Idealize.ShloMosaic Idealize.ShloMosaic.ValueIdx

abbrev SX : Shape := ⟨2, ![1048576, 4]⟩
abbrev SW1 : Shape := ⟨2, ![128, 4]⟩
abbrev SB1 : Shape := ⟨2, ![128, 1]⟩
abbrev SW2 : Shape := ⟨2, ![8, 128]⟩
abbrev SB2 : Shape := ⟨2, ![8, 1]⟩
abbrev SY : Shape := ⟨2, ![1048576, 2]⟩

/-- Hidden unit k at batch row b: the rectified affine form of the row's four features. -/
def hid (x : SX.Idx → EReal) (w1 : SW1.Idx → EReal) (b1 : SB1.Idx → EReal) (k : Fin 128) (b : Fin 1048576) : EReal :=
  max ((∑ j : Fin 4, w1 (ix2 k j) * x (ix2 b j)) + b1 (ix2 k 0)) 0

/-- The network read through its first H hidden units, at batch row b and action a. -/
def out (H : Nat) (hH : H ≤ 128) (x : SX.Idx → EReal) (w1 : SW1.Idx → EReal) (b1 : SB1.Idx → EReal)
    (w2 : SW2.Idx → EReal) (b2 : SB2.Idx → EReal) (b : Fin 1048576) (a : Fin 2) : EReal :=
  (∑ k : Fin H, w2 (ix2 (a.castLE (by decide)) (k.castLE hH)) * hid x w1 b1 (k.castLE hH) b)
    + b2 (ix2 (a.castLE (by decide)) 0)

/-- The result array: rows are batch rows, columns the two actions. -/
def net (H : Nat) (hH : H ≤ 128) (x : SX.Idx → EReal) (w1 : SW1.Idx → EReal) (b1 : SB1.Idx → EReal)
    (w2 : SW2.Idx → EReal) (b2 : SB2.Idx → EReal) : SY.Idx → EReal :=
  fun i => out H hH x w1 b1 w2 b2 (i 0) (i 1)

/-- A sum over 128 terms whose terms from 64 on vanish is the sum of the first 64. -/
theorem sum_first64 (f : Fin 128 → EReal) (h : ∀ k : Fin 128, 64 ≤ k.val → f k = 0) :
    ∑ k : Fin 128, f k = ∑ k : Fin 64, f (k.castLE (by decide)) := by
  have e := Fin.sum_univ_add (M := EReal) (a := 64) (b := 64) f
  have hz : ∑ i : Fin 64, f (Fin.natAdd 64 i) = 0 :=
    Finset.sum_eq_zero (fun k _ => h _ (by show 64 ≤ 64 + k.val; omega))
  refine e.trans ?_
  rw [hz, add_zero]
  rfl

/-- With the columns of w2 from 64 on zero, the network through 128 hidden units is the network through 64. -/
theorem net_128_eq_64 (x : SX.Idx → EReal) (w1 : SW1.Idx → EReal) (b1 : SB1.Idx → EReal)
    (w2 : SW2.Idx → EReal) (b2 : SB2.Idx → EReal)
    (hz : ∀ (a : Fin 8) (k : Fin 128), 64 ≤ k.val → w2 (ix2 a k) = 0) :
    net 128 (le_refl _) x w1 b1 w2 b2 = net 64 (by decide) x w1 b1 w2 b2 := by
  funext i
  unfold net out
  refine congrArg (· + b2 (ix2 ((i 1).castLE (by decide)) 0)) ?_
  exact sum_first64 (fun k => w2 (ix2 ((i 1).castLE (by decide)) k) * hid x w1 b1 k (i 0))
    (fun k hk => by show w2 _ * _ = 0; rw [hz _ k hk, zero_mul])

/-! ## Layout facts -/

section Layout
variable {α : Type}

/-- A matrix cut from the origin reads, at (p, q), the source at (p, q). -/
theorem slice2_origin_apply {n0 n1 m0 m1 : Nat} (X : (⟨2, ![n0, n1]⟩ : Shape).Idx → α)
    (h : (⟨2, ![n0, n1]⟩ : Shape).Slices ![0, 0] ⟨2, ![m0, m1]⟩)
    (p : Fin m0) (q : Fin m1) (p' : Fin n0) (q' : Fin n1) (hp : p'.val = p.val) (hq : q'.val = q.val) :
    extractStridedSlice ⟨2, ![m0, m1]⟩ ![0, 0] X h (ix2 p q) = X (ix2 p' q') :=
  extractStridedSlice_apply _ _ _ _ _ (fun ax => by
    match ax with
    | ⟨0, _⟩ => exact hp.trans (Nat.zero_add _).symm
    | ⟨1, _⟩ => exact hq.trans (Nat.zero_add _).symm)

/-- A column [H, 1] spread along the lanes to [H, N] reads, at (p, q), the column at (p, 0). -/
theorem column_spread_apply {H N : Nat} (x : (⟨2, ![H, 1]⟩ : Shape).Idx → α)
    (h : (⟨2, ![H, 1]⟩ : Shape).Broadcasts ⟨2, ![H, N]⟩) (p : Fin H) (q : Fin N) :
    broadcastTo ⟨2, ![H, N]⟩ x h (ix2 p q) = x (ix2 p 0) :=
  broadcastTo_apply x h _ _ (fun a => by
    match a with
    | ⟨0, _⟩ =>
      show p.val = if H = 1 then 0 else p.val
      have := p.isLt
      split <;> omega
    | ⟨1, _⟩ => rfl)

end Layout

/-! ## The lanes-major arrangement -/

/-- The network with the batch along the lanes: x transposed to [4, B], A action rows, H hidden units. -/
def laneNet (A H B : Nat) (xT : (⟨2, ![4, B]⟩ : Shape).Idx → EReal) (w1 : (⟨2, ![H, 4]⟩ : Shape).Idx → EReal)
    (b1 : (⟨2, ![H, 1]⟩ : Shape).Idx → EReal) (w2 : (⟨2, ![A, H]⟩ : Shape).Idx → EReal)
    (b2 : (⟨2, ![A, 1]⟩ : Shape).Idx → EReal) : (⟨2, ![A, B]⟩ : Shape).Idx → EReal :=
  fun i => (∑ k : Fin H, w2 (ix2 (i 0) k) * max ((∑ j : Fin 4, w1 (ix2 k j) * xT (ix2 j (i 1))) + b1 (ix2 k 0)) 0)
    + b2 (ix2 (i 0) 0)

/-- The lanes-major network over the first 64 hidden units and the 2 action rows of the weights, on x transposed, and
    transposed back, is the network through 64 hidden units. -/
theorem lane64_eq (x : FVec Ideal SX .f32) (w1 : FVec Ideal SW1 .f32) (b1 : FVec Ideal SB1 .f32)
    (w2 : FVec Ideal SW2 .f32) (b2 : FVec Ideal SB2 .f32)
    (ht : SX.Transposes [1, 0] ⟨2, ![4, 1048576]⟩) (hb : FTy.bf16.bits < FTy.f32.bits)
    (s1 : SW1.Slices ![0, 0] ⟨2, ![64, 4]⟩) (s2 : SB1.Slices ![0, 0] ⟨2, ![64, 1]⟩)
    (s3 : SW2.Slices ![0, 0] ⟨2, ![2, 64]⟩) (s4 : SB2.Slices ![0, 0] ⟨2, ![2, 1]⟩)
    (ht' : (⟨2, ![2, 1048576]⟩ : Shape).Transposes [1, 0] SY) :
    transpose SY [1, 0] (laneNet 2 64 1048576
        (truncf .bf16 (transpose ⟨2, ![4, 1048576]⟩ [1, 0] x ht : FVec Ideal ⟨2, ![4, 1048576]⟩ .f32) hb : FVec Ideal _ .bf16)
        (truncf .bf16 (extractStridedSlice ⟨2, ![64, 4]⟩ ![0, 0] w1 s1 : FVec Ideal ⟨2, ![64, 4]⟩ .f32) hb : FVec Ideal _ .bf16)
        (truncf .bf16 (extractStridedSlice ⟨2, ![64, 1]⟩ ![0, 0] b1 s2 : FVec Ideal ⟨2, ![64, 1]⟩ .f32) hb : FVec Ideal _ .bf16)
        (truncf .bf16 (extractStridedSlice ⟨2, ![2, 64]⟩ ![0, 0] w2 s3 : FVec Ideal ⟨2, ![2, 64]⟩ .f32) hb : FVec Ideal _ .bf16)
        (extractStridedSlice ⟨2, ![2, 1]⟩ ![0, 0] b2 s4)) ht'
      = net 64 (by decide) x w1 b1 w2 b2 := by
  funext i
  obtain ⟨b, a, rfl⟩ : ∃ (b : Fin 1048576) (a : Fin 2), i = ix2 b a := ⟨i 0, i 1, eq_ix2 i⟩
  refine (transpose_ix2_apply _ ht' b a).trans ?_
  show (∑ k : Fin 64, _ * max ((∑ j : Fin 4, _ * _) + _) 0) + _ = (∑ k : Fin 64, _ * max ((∑ j : Fin 4, _ * _) + _) 0) + _
  refine congrArg₂ (· + ·) (Finset.sum_congr rfl fun k _ => congrArg₂ (· * ·) ?_ (congrArg₂ max (congrArg₂ (· + ·)
    (Finset.sum_congr rfl fun j _ => congrArg₂ (· * ·) ?_ ?_) ?_) rfl)) ?_
  · exact slice2_origin_apply w2 s3 a k _ _ rfl rfl
  · exact slice2_origin_apply w1 s1 k j _ _ rfl rfl
  · exact transpose_ix2_apply x ht j b
  · exact slice2_origin_apply b1 s2 k 0 _ _ rfl rfl
  · exact slice2_origin_apply b2 s4 a 0 _ _ rfl rfl

/-- The lanes-major network over all 128 hidden units and 8 action rows, on x transposed, cut to its first 2 action rows
    and transposed back, is the network through 128 hidden units. -/
theorem lane128_eq (x : FVec Ideal SX .f32) (w1 : FVec Ideal SW1 .f32) (b1 : FVec Ideal SB1 .f32)
    (w2 : FVec Ideal SW2 .f32) (b2 : FVec Ideal SB2 .f32)
    (ht : SX.Transposes [1, 0] ⟨2, ![4, 1048576]⟩)
    (hs : (⟨2, ![8, 1048576]⟩ : Shape).Slices ![0, 0] ⟨2, ![2, 1048576]⟩)
    (ht' : (⟨2, ![2, 1048576]⟩ : Shape).Transposes [1, 0] SY) :
    transpose SY [1, 0] (extractStridedSlice ⟨2, ![2, 1048576]⟩ ![0, 0]
        (laneNet 8 128 1048576 (transpose ⟨2, ![4, 1048576]⟩ [1, 0] x ht) w1 b1 w2 b2) hs) ht'
      = net 128 (le_refl _) x w1 b1 w2 b2 := by
  funext i
  obtain ⟨b, a, rfl⟩ : ∃ (b : Fin 1048576) (a : Fin 2), i = ix2 b a := ⟨i 0, i 1, eq_ix2 i⟩
  refine (transpose_ix2_apply _ ht' b a).trans ?_
  refine (slice2_origin_apply _ hs a b (a.castLE (by decide)) b rfl rfl).trans ?_
  show (∑ k : Fin 128, _ * max ((∑ j : Fin 4, _ * _) + _) 0) + _ = (∑ k : Fin 128, _ * max ((∑ j : Fin 4, _ * _) + _) 0) + _
  refine congrArg₂ (· + ·) (Finset.sum_congr rfl fun k _ => congrArg₂ (· * ·) rfl (congrArg₂ max (congrArg₂ (· + ·)
    (Finset.sum_congr rfl fun j _ => congrArg₂ (· * ·) rfl ?_) rfl) rfl)) rfl
  exact transpose_ix2_apply x ht j b

end Cert.Net

end
-- ==== Proof.Padding.lean ====
/-
  The added conjunct of the precondition, read back: the hidden columns of w2 from 50 on are zero.

  The precondition is a conjunction of "all" tests folded by "and"; its last conjunct tests every entry of the slice
  w2[:, 50:] for equality with 0. From the whole being true, that conjunct is true, so every tested entry equals 0.
-/
import proofs.«126951_g2000002316298219_pallasbulk_197_18_alg».proof.Pre_finite_inputs
import Idealize.ShloMosaic.PureOps.Ideal
import Idealize.ShloMosaic.PureOps.Ideal.Laws
import Idealize.ShloMosaic.Lib.ValueIdx
import Idealize.ShloMosaic.Lib.ValueLayout
import Idealize.ShloMosaic.Lib.ReduceAll
import Idealize.ShloMosaic.Lib.Affine

noncomputable section

namespace Cert.Padding

open Idealize.ShloMosaic Idealize.ShloMosaic.ValueIdx Cert.Pre_finite_inputs

instance : Subsingleton S_.Idx := ⟨fun a b => funext fun d => d.elim0⟩

/-- An equality test that answers 1 compared equal numbers. -/
theorem eq_of_cmp_oeq {x y : EReal} (h : Ideal.cmp .oeq x y = 1#1) : x = y := by
  unfold Ideal.cmp at h
  by_contra hne
  simp [hne] at h

variable [Cert.Pre_finite_inputs.Facts]

/-- Under the precondition, w2[a, k] = 0 for every hidden column k ≥ 50. -/
theorem w2_pad_zero (x : FVec Ideal S1048576x4 .f32) (w1 : FVec Ideal S128x4 .f32) (b1 : FVec Ideal S128x1 .f32)
    (w2 : FVec Ideal S8x128 .f32) (b2 : FVec Ideal S8x1 .f32)
    (h : Cert.Pre_finite_inputs.fn (F := Ideal) x w1 b1 w2 b2 = fun _ => 1#1)
    (a : Fin 8) (k : Fin 128) (hk : 50 ≤ k.val) : w2 (ix2 a k) = 0 := by
  have h0 := congrFun h ix0
  dsimp only [Cert.Pre_finite_inputs.fn, Cert.Pre_finite_inputs.fn_part1] at h0
  have h1 : IntOp.andi _ _ = 1#1 := h0
  have h2 := (IntOp.andi_eq_one.mp h1).2
  have hk' : k.val - 50 < 78 := by have := k.isLt; omega
  have h3 := Host.reduce_andi_all _ _ _ _ _ h2 (ix2 a (⟨k.val - 50, hk'⟩ : Fin 78))
  have h4 : Ideal.cmp .oeq (extractStridedSlice S8x78 ![0, 50] w2 Facts.slices_S8x128_S8x78_0_50
      (ix2 a (⟨k.val - 50, hk'⟩ : Fin 78))) (Ideal.ofBits .f32 0x00000000#32) = 1#1 := h3
  have h5 := eq_of_cmp_oeq h4
  rw [Ideal.ofBits_zero_f32] at h5
  exact (slice2_axis1_apply 50 w2 Facts.slices_S8x128_S8x78_0_50 a (⟨k.val - 50, hk'⟩ : Fin 78) k
    (by show k.val = 50 + (k.val - 50); omega)).symm.trans h5

end Cert.Padding

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.KernelTile.lean ====
/-
  What the lanes-major body stores at one entry of its output block.

  The body holds a block of 65536 batch rows as lanes: x as a [4, 65536] block, the weights whole. At action a and lane q it
  stores (∑ over the 64 hidden units k of w2[a,k] · max((∑ over the features j of w1[k,j] · x[j,q]) + b1[k], 0)) + b2[a]:
  two matrix products into zero accumulators read as plain sums, a bias column spread along the lanes, a maximum with
  zero, a second bias column. A change of float format is the identity on the extended reals.
-/
import proofs.«126951_g2000002316298219_pallasbulk_197_18_alg».proof.Proof.Gen.KernelIdeal.Skeleton
import proofs.«126951_g2000002316298219_pallasbulk_197_18_alg».proof.Proof.LibPlainContract
import proofs.«126951_g2000002316298219_pallasbulk_197_18_alg».proof.Proof.Net
import Idealize.ShloMosaic.PureOps.Ideal.Laws
import Idealize.ShloMosaic.Lib.ValueIdx
import Idealize.ShloMosaic.Lib.Pipeline.Value

noncomputable section

namespace Cert.KernelIdeal.Tile

open Idealize.ShloMosaic Idealize.ShloMosaic.ValueIdx Cert.KernelIdeal Cert.KernelIdeal.Gen

/-- The bf16 zero word is the number zero. -/
theorem zero_bf16 : (Scalar.ofBits (F := Ideal) .bf16 0x0000#16 : EReal) = 0 := by
  show Ideal.ofBits .bf16 0x0000#16 = 0
  simp [Ideal.ofBits, Ideal.ieee]

/-- The hidden block at unit k and lane q. -/
theorem hidden_apply (v0 : Vec Ideal S64x4 .bf16) (v2 : Vec Ideal S4x65536 .bf16) (v6 : Vec Ideal S64x1 .bf16)
    (h0 : S64x4.ShapeCasts S64x4) (h2 : S4x65536.ShapeCasts S4x65536) (hb : FTy.bf16.bits < FTy.f32.bits)
    (h6 : S64x1.ShapeCasts S64x1) (hs : S64x1.Broadcasts S64x65536) (k : Fin 64) (q : Fin 65536) :
    (maximumf (addf (truncf .bf16 (matmul (F := Ideal) dot_S64x4_S4x65536_S64x65536_1_0_0_1_n_n none
          (shapeCast S64x4 v0 h0 : FVec Ideal S64x4 .bf16) (shapeCast S4x65536 v2 h2 : FVec Ideal S4x65536 .bf16)
          (constant S64x65536 .f32 0x00000000#32)) hb)
        (broadcastTo S64x65536 (shapeCast S64x1 v6 h6 : FVec Ideal S64x1 .bf16) hs))
      (broadcast S64x65536 (Scalar.ofBits (F := Ideal) .bf16 0x0000#16)) : FVec Ideal S64x65536 .bf16) (ix2 k q)
      = max ((∑ j : Fin 4, v0 (ix2 k j) * v2 (ix2 j q)) + v6 (ix2 k 0)) 0 := by
  show max (_ + _) _ = _
  refine congrArg₂ max (congrArg₂ (· + ·) ?_ ?_) ?_
  · refine (Cert.LibPlainContract.matmul_plain_apply 64 4 65536 none _ _ k q).trans ?_
    rw [shapeCast_self, shapeCast_self]
  · refine (Cert.Net.column_spread_apply _ _ k q).trans ?_
    rw [shapeCast_self]
  · exact zero_bf16

/-- The stored block at action a and lane q. -/
theorem pay_apply (v0 : Vec Ideal S64x4 .bf16) (v2 : Vec Ideal S4x65536 .bf16) (v6 : Vec Ideal S64x1 .bf16)
    (v12 : Vec Ideal S2x64 .bf16) (v15 : Vec Ideal S2x1 .f32) (a : Fin 2) (q : Fin 65536) :
    k0_pay1 (F := Ideal) v0 v2 v6 v12 v15 (ix2 a q)
      = (∑ k : Fin 64, v12 (ix2 a k) * max ((∑ j : Fin 4, v0 (ix2 k j) * v2 (ix2 j q)) + v6 (ix2 k 0)) 0)
          + v15 (ix2 a 0) := by
  unfold k0_pay1
  show _ + _ = _
  refine congrArg₂ (· + ·) ?_ ?_
  · refine (Cert.LibPlainContract.matmul_plain_apply 2 64 65536 none _ _ a q).trans ?_
    refine Finset.sum_congr rfl fun k _ => ?_
    refine congrArg₂ (· * ·) ?_ ?_
    · rw [shapeCast_self]
    · exact hidden_apply v0 v2 v6 _ _ _ _ _ k q
  · refine (Cert.Net.column_spread_apply _ _ a q).trans ?_
    rw [shapeCast_self]

end Cert.KernelIdeal.Tile

end
-- ==== Proof.KernelValue.lean ====
/-
  The kernel's result as one function of its five argument arrays.

  The region computes, block of 65536 lanes by block, the lanes-major network of x transposed and of the first 64 hidden
  rows / first 2 action rows of the weights (the host lines before the region cut and transpose them; a change of float
  format is the identity). Each point writes back its own block of lanes and the 16 blocks tile the [2, 1048576] array;
  the host line after the region transposes it to [1048576, 2]. Read entry by entry this is the network through 64
  hidden units.
-/
import proofs.«126951_g2000002316298219_pallasbulk_197_18_alg».proof.Proof.Gen.KernelIdeal.Frame
import proofs.«126951_g2000002316298219_pallasbulk_197_18_alg».proof.Proof.KernelTile
import proofs.«126951_g2000002316298219_pallasbulk_197_18_alg».proof.Proof.Net
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem origin : (![0, 0] : Fin 2 → Nat) = fun _ => 0 := funext fun a => by fin_cases a <;> rfl

/-- The printed index maps, decided over the grid: the batch windows (x transposed and the result) sit at lane block t,
    the weight windows at the origin. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- Every lane block is some point's. -/
theorem idx_onto : ∀ q : Fin 16, ∃ t : Fin cfg0.N, t.val = q.val :=
  (by decide +kernel : ∀ q : Fin 16, ∃ t : Fin grid0.N, t.val = q.val)

/-! ## The weight windows hold their whole arrays at every point -/

theorem blk1 (c : Dev nD) (t : Fin cfg0.N) : iblk m c 1 t = V m c main_v3 := by
  funext y
  show V m c main_v3 (((cfg0.win 1).blk t).view.emb y) = V m c main_v3 y
  refine congrArg _ (funext fun a => Fin.ext ?_)
  obtain ⟨_, _, e0, e1, _⟩ := idx_facts t
  match a with
  | ⟨0, _⟩ => show win0_1.index t (0 : Fin 2) * 64 + 1 * (y 0).val = (y 0).val; omega
  | ⟨1, _⟩ => show win0_1.index t (1 : Fin 2) * 4 + 1 * (y 1).val = (y 1).val; omega

theorem blk2 (c : Dev nD) (t : Fin cfg0.N) : iblk m c 2 t = V m c main_v5 := by
  funext y
  show V m c main_v5 (((cfg0.win 2).blk t).view.emb y) = V m c main_v5 y
  refine congrArg _ (funext fun a => Fin.ext ?_)
  obtain ⟨_, _, _, _, e0, e1, _⟩ := idx_facts t
  match a with
  | ⟨0, _⟩ => show win0_2.index t (0 : Fin 2) * 64 + 1 * (y 0).val = (y 0).val; omega
  | ⟨1, _⟩ => show win0_2.index t (1 : Fin 2) * 1 + 1 * (y 1).val = (y 1).val; omega

theorem blk3 (c : Dev nD) (t : Fin cfg0.N) : iblk m c 3 t = V m c main_v7 := by
  funext y
  show V m c main_v7 (((cfg0.win 3).blk t).view.emb y) = V m c main_v7 y
  refine congrArg _ (funext fun a => Fin.ext ?_)
  obtain ⟨_, _, _, _, _, _, e0, e1, _⟩ := idx_facts t
  match a with
  | ⟨0, _⟩ => show win0_3.index t (0 : Fin 2) * 2 + 1 * (y 0).val = (y 0).val; omega
  | ⟨1, _⟩ => show win0_3.index t (1 : Fin 2) * 64 + 1 * (y 1).val = (y 1).val; omega

theorem blk4 (c : Dev nD) (t : Fin cfg0.N) : iblk m c 4 t = V m c main_v8 := by
  funext y
  show V m c main_v8 (((cfg0.win 4).blk t).view.emb y) = V m c main_v8 y
  refine congrArg _ (funext fun a => Fin.ext ?_)
  obtain ⟨_, _, _, _, _, _, _, _, e0, e1, _⟩ := idx_facts t
  match a with
  | ⟨0, _⟩ => show win0_4.index t (0 : Fin 2) * 2 + 1 * (y 0).val = (y 0).val; omega
  | ⟨1, _⟩ => show win0_4.index t (1 : Fin 2) * 1 + 1 * (y 1).val = (y 1).val; omega

/-! ## What a point writes back -/

/-- Point t writes back block t of the lanes-major network of the arrays as the region finds them: lane q of the block is
    lane t · 65536 + q of the array, for the result as for x transposed. -/
theorem flushed_eq (c : Dev nD) (t : Fin cfg0.N) :
    (dats m 0 c).flushed 5 t = ((cfg0.win 5).blk t).view.read (Elt Ideal)
      (Cert.Net.laneNet 2 64 1048576 (V m c main_v1) (V m c main_v3) (V m c main_v5) (V m c main_v7) (V m c main_v8)) := by
  show (cfg0.win 5).cut (grid0.coords t) ((dats m 0 c).after 5 t) = _
  rw [after0_5]
  unfold out0_5
  rw [View.canon_unit_zero origin]
  simp only [View.ld_unit_zero (S := S64x4) origin, View.ld_unit_zero (S := S4x65536) origin,
    View.ld_unit_zero (S := S64x1) origin, View.ld_unit_zero (S := S2x64) origin, View.ld_unit_zero (S := S2x1) origin]
  rw [blk1, blk2, blk3, blk4]
  obtain ⟨e00, e01, _, _, _, _, _, _, _, _, e50, e51⟩ := idx_facts t
  funext j
  obtain ⟨a, q, rfl⟩ : ∃ (a : Fin 2) (q : Fin 65536), j = ix2 a q := ⟨j 0, j 1, eq_ix2 j⟩
  have hq := q.isLt
  have ht : t.val < 16 := t.isLt
  have he : (((cfg0.win 5).blk t).view.emb (ix2 a q) : S2x1048576.Idx)
      = ix2 a (⟨t.val * 65536 + q.val, by omega⟩ : Fin 1048576) := by
    funext a'; apply Fin.ext
    match a' with
    | ⟨0, _⟩ => show win0_5.index t (0 : Fin 2) * 2 + 1 * a.val = a.val; omega
    | ⟨1, _⟩ => show win0_5.index t (1 : Fin 2) * 65536 + 1 * q.val = t.val * 65536 + q.val; omega
  have hx : ∀ jj : Fin 4, iblk m c 0 t (ix2 jj q)
      = V m c main_v1 (ix2 jj (⟨t.val * 65536 + q.val, by omega⟩ : Fin 1048576)) := fun jj => by
    show V m c main_v1 (((cfg0.win 0).blk t).view.emb (ix2 jj q)) = _
    refine congrArg _ (funext fun a' => Fin.ext ?_)
    match a' with
    | ⟨0, _⟩ => show win0_0.index t (0 : Fin 2) * 4 + 1 * jj.val = jj.val; omega
    | ⟨1, _⟩ => show win0_0.index t (1 : Fin 2) * 65536 + 1 * q.val = t.val * 65536 + q.val; omega
  refine (Tile.pay_apply _ _ _ _ _ a q).trans ?_
  show _ = Cert.Net.laneNet 2 64 1048576 (V m c main_v1) (V m c main_v3) (V m c main_v5) (V m c main_v7) (V m c main_v8)
    (((cfg0.win 5).blk t).view.emb (ix2 a q))
  rw [he]
  unfold Cert.Net.laneNet
  exact congrArg₂ (· + ·) (Finset.sum_congr rfl fun k _ => congrArg₂ (· * ·) rfl (congrArg₂ max (congrArg₂ (· + ·)
    (Finset.sum_congr rfl fun jj _ => congrArg₂ (· * ·) rfl (hx jj)) rfl) rfl)) rfl

/-! ## The blocks tile the array -/

theorem mem_blk (t : Fin cfg0.N) (i : S2x1048576.Idx) :
    i ∈ ((cfg0.win 5).blk t).view.set ↔ ∀ a : Fin 2, win0_5.index t a * S2x65536.size a ≤ (i a).val
      ∧ (i a).val < win0_5.index t a * S2x65536.size a + S2x65536.size a := by
  show i ∈ ((View.whole main_v9).slice (win0_5.rect t)).set ↔ _
  rw [View.set_slice_whole, Rect.mem_set_unit]
  exact Iff.rfl

theorem cover (i : S2x1048576.Idx) :
    ∃ t : Fin cfg0.N, (cfg0.win 5).flush t = true ∧ i ∈ ((cfg0.win 5).blk t).view.set := by
  have hi0 : (i 0).val < 2 := (i 0).isLt
  have hi1 : (i 1).val < 1048576 := (i 1).isLt
  obtain ⟨t, ht⟩ := idx_onto ⟨(i 1).val / 65536, by omega⟩
  have ht' : t.val = (i 1).val / 65536 := ht
  obtain ⟨_, _, _, _, _, _, _, _, _, _, e50, e51⟩ := idx_facts t
  refine ⟨t, flush0_5 t, ?_⟩
  rw [mem_blk]
  intro a
  match a with
  | ⟨0, _⟩ => show win0_5.index t (0 : Fin 2) * 2 ≤ (i 0).val ∧ (i 0).val < win0_5.index t (0 : Fin 2) * 2 + 2; omega
  | ⟨1, _⟩ => show win0_5.index t (1 : Fin 2) * 65536 ≤ (i 1).val ∧ (i 1).val < win0_5.index t (1 : Fin 2) * 65536 + 65536; omega

/-- The result array of the region after the run: the lanes-major network of the arrays as the region finds them. -/
theorem final (c : Dev nD) : (dats m 0 c).arrAt 5 cfg0.N
    = Cert.Net.laneNet 2 64 1048576 (V m c main_v1) (V m c main_v3) (V m c main_v5) (V m c main_v7) (V m c main_v8) :=
  (dats m 0 c).arrAt_eq_of_cover 5 _ (fun t _ => flushed_eq m c t) cover

/-! ## The host lines around the region -/

theorem V_v1 (c : Dev nD) : (V m c main_v1 : S4x1048576.Idx → EReal)
    = (truncf .bf16 (transpose S4x1048576 [1, 0] (m ((c : Thread nD τ).loc main_arg0)) Gen.transposes_S1048576x4_S4x1048576_1_0 : FVec Ideal S4x1048576 .f32) Gen.bitsLt_bf16_f32 : FVec Ideal S4x1048576 .bf16) := by
  show StableHlo.after hostOps0 (fun b => m (c, b)) (Proc.devRef .tc main_v1) = _
  after_results

theorem V_v3 (c : Dev nD) : (V m c main_v3 : S64x4.Idx → EReal)
    = (truncf .bf16 (extractStridedSlice S64x4 ![0, 0] (m ((c : Thread nD τ).loc main_arg1)) Gen.slices_S128x4_S64x4_0_0 : FVec Ideal S64x4 .f32) Gen.bitsLt_bf16_f32 : FVec Ideal S64x4 .bf16) := by
  show StableHlo.after hostOps0 (fun b => m (c, b)) (Proc.devRef .tc main_v3) = _
  after_results

theorem V_v5 (c : Dev nD) : (V m c main_v5 : S64x1.Idx → EReal)
    = (truncf .bf16 (extractStridedSlice S64x1 ![0, 0] (m ((c : Thread nD τ).loc main_arg2)) Gen.slices_S128x1_S64x1_0_0 : FVec Ideal S64x1 .f32) Gen.bitsLt_bf16_f32 : FVec Ideal S64x1 .bf16) := by
  show StableHlo.after hostOps0 (fun b => m (c, b)) (Proc.devRef .tc main_v5) = _
  after_results

theorem V_v7 (c : Dev nD) : (V m c main_v7 : S2x64.Idx → EReal)
    = (truncf .bf16 (extractStridedSlice S2x64 ![0, 0] (m ((c : Thread nD τ).loc main_arg3)) Gen.slices_S8x128_S2x64_0_0 : FVec Ideal S2x64 .f32) Gen.bitsLt_bf16_f32 : FVec Ideal S2x64 .bf16) := by
  show StableHlo.after hostOps0 (fun b => m (c, b)) (Proc.devRef .tc main_v7) = _
  after_results

theorem V_v8 (c : Dev nD) : (V m c main_v8 : S2x1.Idx → EReal)
    = extractStridedSlice S2x1 ![0, 0] (m ((c : Thread nD τ).loc main_arg4)) Gen.slices_S8x1_S2x1_0_0 := by
  show StableHlo.after hostOps0 (fun b => m (c, b)) (Proc.devRef .tc main_v8) = _
  after_results

/-- The program's result after the host line that follows the region: the region's array transposed. -/
theorem tail_v10 (c : Dev nD) :
    Pipeline.afterTail₀ cfgs (dats m) 0 (V0 m) [hostOps1] c main_v10
      = transpose S1048576x2 [1, 0] ((dats m 0 c).arrAt 5 cfg0.N) Gen.transposes_S2x1048576_S1048576x2_1_0 := by
  unfold Pipeline.afterTail₀
  show StableHlo.after hostOps1 _ (Proc.devRef .tc main_v10) = _
  after_results
  exact congrArg (fun z => transpose S1048576x2 [1, 0] z Gen.transposes_S2x1048576_S1048576x2_1_0)
    (Pipeline.withArrays_arr spec0 launch0.win.arr_inj c _ _ 5)

/-- The program's result: the network through 64 hidden units of the argument arrays. -/
theorem result_eq (c : Dev nD) :
    Pipeline.afterTail₀ cfgs (dats m) 0 (V0 m) [hostOps1] c main_v10
      = Cert.Net.net 64 (by decide) (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_v10, final, V_v1, V_v3, V_v5, V_v7, V_v8]
  exact Cert.Net.lane64_eq _ _ _ _ _ _ _ _ _ _ _ _

/-- Every weakly fair execution of the kernel's program terminates with the result at the network through 64 hidden
    units of the arguments, and the arguments as launched. -/
theorem run : θ_run defs (onTc (τ := τ) (main (F := Ideal))) ⟨m, fun _ => 0, ρ⟩ (fun r => ∀ c : Dev nD,
      r.2.mem ((c.tc : Thread nD τ).loc main_v10)
        = Cert.Net.net 64 (by decide) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Val

end
-- ==== Proof.RefTile.lean ====
/-
  What the reference's lanes-major body stores at one entry of its output block.

  The body holds a block of 4096 batch rows as lanes: x as a [4, 4096] block, the weights whole. At action row a (of 8) and
  lane q it stores (∑ over the 128 hidden units k of w2[a,k] · max((∑ over the features j of w1[k,j] · x[j,q]) + b1[k], 0))
  + b2[a]: two matrix products into zero accumulators read as plain sums, a bias column spread along the lanes, a maximum
  with zero, a second bias column.
-/
import proofs.«126951_g2000002316298219_pallasbulk_197_18_alg».proof.Proof.Gen.ReferenceIdeal.Skeleton
import proofs.«126951_g2000002316298219_pallasbulk_197_18_alg».proof.Proof.LibPlainContract
import proofs.«126951_g2000002316298219_pallasbulk_197_18_alg».proof.Proof.Net
import Idealize.ShloMosaic.PureOps.Ideal.Laws
import Idealize.ShloMosaic.Lib.ValueIdx
import Idealize.ShloMosaic.Lib.Pipeline.Value

noncomputable section

namespace Cert.ReferenceIdeal.Tile

open Idealize.ShloMosaic Idealize.ShloMosaic.ValueIdx Cert.ReferenceIdeal Cert.ReferenceIdeal.Gen

/-- The f32 zero word, as a scalar, is the number zero. -/
theorem zero_f32 : (Scalar.ofBits (F := Ideal) .f32 0x00000000#32 : EReal) = 0 := by
  show Ideal.ofBits .f32 0x00000000#32 = 0
  exact Ideal.ofBits_zero_f32

/-- The hidden block at unit k and lane q. -/
theorem hidden_apply (v0 : Vec Ideal S128x4 .f32) (v1 : Vec Ideal S4x4096 .f32) (v4 : Vec Ideal S128x1 .f32)
    (h1 : S4x4096.ShapeCasts S4x4096) (hs : S128x1.Broadcasts S128x4096) (k : Fin 128) (q : Fin 4096) :
    (maximumf (addf (matmul (F := Ideal) (φ₁ := .f32) (φ₂ := .f32) dot_S128x4_S4x4096_S128x4096_1_0_0_1_n_n none
          (v0 : FVec Ideal S128x4 .f32) (shapeCast S4x4096 v1 h1 : FVec Ideal S4x4096 .f32) (constant S128x4096 .f32 0x00000000#32))
        (broadcastTo S128x4096 (v4 : FVec Ideal S128x1 .f32) hs))
      (broadcast S128x4096 (Scalar.ofBits (F := Ideal) .f32 0x00000000#32)) : FVec Ideal S128x4096 .f32) (ix2 k q)
      = max ((∑ j : Fin 4, v0 (ix2 k j) * v1 (ix2 j q)) + v4 (ix2 k 0)) 0 := by
  show max (_ + _) _ = _
  refine congrArg₂ max (congrArg₂ (· + ·) ?_ ?_) ?_
  · refine (Cert.LibPlainContract.matmul_plain_apply 128 4 4096 none _ _ k q).trans ?_
    rw [shapeCast_self]
  · exact Cert.Net.column_spread_apply _ _ k q
  · exact zero_f32

/-- The stored block at action row a and lane q. -/
theorem pay_apply (v0 : Vec Ideal S128x4 .f32) (v1 : Vec Ideal S4x4096 .f32) (v4 : Vec Ideal S128x1 .f32)
    (v9 : Vec Ideal S8x128 .f32) (v11 : Vec Ideal S8x1 .f32) (a : Fin 8) (q : Fin 4096) :
    k0_pay1 (F := Ideal) v0 v1 v4 v9 v11 (ix2 a q)
      = (∑ k : Fin 128, v9 (ix2 a k) * max ((∑ j : Fin 4, v0 (ix2 k j) * v1 (ix2 j q)) + v4 (ix2 k 0)) 0)
          + v11 (ix2 a 0) := by
  unfold k0_pay1
  show _ + _ = _
  refine congrArg₂ (· + ·) ?_ ?_
  · refine (Cert.LibPlainContract.matmul_plain_apply 8 128 4096 none _ _ a q).trans ?_
    refine Finset.sum_congr rfl fun k _ => ?_
    refine congrArg₂ (· * ·) rfl ?_
    exact hidden_apply v0 v1 v4 _ _ k q
  · exact Cert.Net.column_spread_apply _ _ a q

end Cert.ReferenceIdeal.Tile

end
-- ==== Proof.RefValue.lean ====
/-
  The reference's result as one function of its five argument arrays.

  The region computes, block of 4096 lanes by block, the lanes-major network of x transposed (the host line before the
  region) and of the whole weights, all 128 hidden units and 8 action rows. Each point writes back its own block of lanes
  and the 256 blocks tile the [8, 1048576] array; the host lines after the region keep the first 2 action rows and
  transpose to [1048576, 2]. Read entry by entry this is the network through 128 hidden units.
-/
import proofs.«126951_g2000002316298219_pallasbulk_197_18_alg».proof.Proof.Gen.ReferenceIdeal.Frame
import proofs.«126951_g2000002316298219_pallasbulk_197_18_alg».proof.Proof.RefTile
import proofs.«126951_g2000002316298219_pallasbulk_197_18_alg».proof.Proof.Net
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.ReferenceIdeal.Val

open Idealize.ShloMosaic Idealize.ShloMosaic.TcCoe Idealize.ShloMosaic.ValueIdx Idealize.SL.Sem
open Idealize.ShloMosaic.Pipeline (Dat)
open Cert.ReferenceIdeal Cert.ReferenceIdeal.Gen

variable (m : (ℓ : Loc nD τ sig) → Buf (Elt Ideal) ℓ) (ρ : Dev nD → PrngReg)

theorem origin : (![0, 0] : Fin 2 → Nat) = fun _ => 0 := funext fun a => by fin_cases a <;> rfl

/-- The printed index maps, decided over the grid: the batch windows (x transposed and the result) sit at lane block t,
    the weight windows at the origin. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- Every lane block is some point's. -/
theorem idx_onto : ∀ q : Fin 256, ∃ t : Fin cfg0.N, t.val = q.val :=
  (by decide +kernel : ∀ q : Fin 256, ∃ t : Fin grid0.N, t.val = q.val)

/-! ## The weight windows hold their whole arrays at every point -/

theorem blk1 (c : Dev nD) (t : Fin cfg0.N) : iblk m c 1 t = V m c main_arg1 := by
  funext y
  show V m c main_arg1 (((cfg0.win 1).blk t).view.emb y) = V m c main_arg1 y
  refine congrArg _ (funext fun a => Fin.ext ?_)
  obtain ⟨_, _, e0, e1, _⟩ := idx_facts t
  match a with
  | ⟨0, _⟩ => show win0_1.index t (0 : Fin 2) * 128 + 1 * (y 0).val = (y 0).val; omega
  | ⟨1, _⟩ => show win0_1.index t (1 : Fin 2) * 4 + 1 * (y 1).val = (y 1).val; omega

theorem blk2 (c : Dev nD) (t : Fin cfg0.N) : iblk m c 2 t = V m c main_arg2 := by
  funext y
  show V m c main_arg2 (((cfg0.win 2).blk t).view.emb y) = V m c main_arg2 y
  refine congrArg _ (funext fun a => Fin.ext ?_)
  obtain ⟨_, _, _, _, e0, e1, _⟩ := idx_facts t
  match a with
  | ⟨0, _⟩ => show win0_2.index t (0 : Fin 2) * 128 + 1 * (y 0).val = (y 0).val; omega
  | ⟨1, _⟩ => show win0_2.index t (1 : Fin 2) * 1 + 1 * (y 1).val = (y 1).val; omega

theorem blk3 (c : Dev nD) (t : Fin cfg0.N) : iblk m c 3 t = V m c main_arg3 := by
  funext y
  show V m c main_arg3 (((cfg0.win 3).blk t).view.emb y) = V m c main_arg3 y
  refine congrArg _ (funext fun a => Fin.ext ?_)
  obtain ⟨_, _, _, _, _, _, e0, e1, _⟩ := idx_facts t
  match a with
  | ⟨0, _⟩ => show win0_3.index t (0 : Fin 2) * 8 + 1 * (y 0).val = (y 0).val; omega
  | ⟨1, _⟩ => show win0_3.index t (1 : Fin 2) * 128 + 1 * (y 1).val = (y 1).val; omega

theorem blk4 (c : Dev nD) (t : Fin cfg0.N) : iblk m c 4 t = V m c main_arg4 := by
  funext y
  show V m c main_arg4 (((cfg0.win 4).blk t).view.emb y) = V m c main_arg4 y
  refine congrArg _ (funext fun a => Fin.ext ?_)
  obtain ⟨_, _, _, _, _, _, _, _, e0, e1, _⟩ := idx_facts t
  match a with
  | ⟨0, _⟩ => show win0_4.index t (0 : Fin 2) * 8 + 1 * (y 0).val = (y 0).val; omega
  | ⟨1, _⟩ => show win0_4.index t (1 : Fin 2) * 1 + 1 * (y 1).val = (y 1).val; omega

/-! ## What a point writes back -/

/-- Point t writes back block t of the lanes-major network of the arrays as the region finds them: lane q of the block is
    lane t · 4096 + q of the array, for the result as for x transposed. -/
theorem flushed_eq (c : Dev nD) (t : Fin cfg0.N) :
    (dats m 0 c).flushed 5 t = ((cfg0.win 5).blk t).view.read (Elt Ideal)
      (Cert.Net.laneNet 8 128 1048576 (V m c main_v0) (V m c main_arg1) (V m c main_arg2) (V m c main_arg3) (V m c main_arg4)) := by
  show (cfg0.win 5).cut (grid0.coords t) ((dats m 0 c).after 5 t) = _
  rw [after0_5]
  unfold out0_5
  rw [View.canon_unit_zero origin]
  simp only [View.ld_unit_zero (S := S128x4) origin, View.ld_unit_zero (S := S4x4096) origin,
    View.ld_unit_zero (S := S128x1) origin, View.ld_unit_zero (S := S8x128) origin, View.ld_unit_zero (S := S8x1) origin]
  rw [blk1, blk2, blk3, blk4]
  obtain ⟨e00, e01, _, _, _, _, _, _, _, _, e50, e51⟩ := idx_facts t
  funext j
  obtain ⟨a, q, rfl⟩ : ∃ (a : Fin 8) (q : Fin 4096), j = ix2 a q := ⟨j 0, j 1, eq_ix2 j⟩
  have hq := q.isLt
  have ht : t.val < 256 := t.isLt
  have he : (((cfg0.win 5).blk t).view.emb (ix2 a q) : S8x1048576.Idx)
      = ix2 a (⟨t.val * 4096 + q.val, by omega⟩ : Fin 1048576) := by
    funext a'; apply Fin.ext
    match a' with
    | ⟨0, _⟩ => show win0_5.index t (0 : Fin 2) * 8 + 1 * a.val = a.val; omega
    | ⟨1, _⟩ => show win0_5.index t (1 : Fin 2) * 4096 + 1 * q.val = t.val * 4096 + q.val; omega
  have hx : ∀ jj : Fin 4, iblk m c 0 t (ix2 jj q)
      = V m c main_v0 (ix2 jj (⟨t.val * 4096 + q.val, by omega⟩ : Fin 1048576)) := fun jj => by
    show V m c main_v0 (((cfg0.win 0).blk t).view.emb (ix2 jj q)) = _
    refine congrArg _ (funext fun a' => Fin.ext ?_)
    match a' with
    | ⟨0, _⟩ => show win0_0.index t (0 : Fin 2) * 4 + 1 * jj.val = jj.val; omega
    | ⟨1, _⟩ => show win0_0.index t (1 : Fin 2) * 4096 + 1 * q.val = t.val * 4096 + q.val; omega
  refine (Tile.pay_apply _ _ _ _ _ a q).trans ?_
  show _ = Cert.Net.laneNet 8 128 1048576 (V m c main_v0) (V m c main_arg1) (V m c main_arg2) (V m c main_arg3) (V m c main_arg4)
    (((cfg0.win 5).blk t).view.emb (ix2 a q))
  rw [he]
  unfold Cert.Net.laneNet
  exact congrArg₂ (· + ·) (Finset.sum_congr rfl fun k _ => congrArg₂ (· * ·) rfl (congrArg₂ max (congrArg₂ (· + ·)
    (Finset.sum_congr rfl fun jj _ => congrArg₂ (· * ·) rfl (hx jj)) rfl) rfl)) rfl

/-! ## The blocks tile the array -/

theorem mem_blk (t : Fin cfg0.N) (i : S8x1048576.Idx) :
    i ∈ ((cfg0.win 5).blk t).view.set ↔ ∀ a : Fin 2, win0_5.index t a * S8x4096.size a ≤ (i a).val
      ∧ (i a).val < win0_5.index t a * S8x4096.size a + S8x4096.size a := by
  show i ∈ ((View.whole main_v1).slice (win0_5.rect t)).set ↔ _
  rw [View.set_slice_whole, Rect.mem_set_unit]
  exact Iff.rfl

theorem cover (i : S8x1048576.Idx) :
    ∃ t : Fin cfg0.N, (cfg0.win 5).flush t = true ∧ i ∈ ((cfg0.win 5).blk t).view.set := by
  have hi0 : (i 0).val < 8 := (i 0).isLt
  have hi1 : (i 1).val < 1048576 := (i 1).isLt
  obtain ⟨t, ht⟩ := idx_onto ⟨(i 1).val / 4096, by omega⟩
  have ht' : t.val = (i 1).val / 4096 := ht
  obtain ⟨_, _, _, _, _, _, _, _, _, _, e50, e51⟩ := idx_facts t
  refine ⟨t, flush0_5 t, ?_⟩
  rw [mem_blk]
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 4096 ≤ (i 1).val ∧ (i 1).val < win0_5.index t (1 : Fin 2) * 4096 + 4096; omega

/-- The result array of the region after the run: the lanes-major network of the arrays as the region finds them. -/
theorem final (c : Dev nD) : (dats m 0 c).arrAt 5 cfg0.N
    = Cert.Net.laneNet 8 128 1048576 (V m c main_v0) (V m c main_arg1) (V m c main_arg2) (V m c main_arg3) (V m c main_arg4) :=
  (dats m 0 c).arrAt_eq_of_cover 5 _ (fun t _ => flushed_eq m c t) cover

/-! ## The host lines around the region -/

theorem V_v0 (c : Dev nD) : (V m c main_v0 : S4x1048576.Idx → EReal)
    = transpose S4x1048576 [1, 0] (m ((c : Thread nD τ).loc main_arg0)) Gen.transposes_S1048576x4_S4x1048576_1_0 := by
  show StableHlo.after hostOps0 (fun b => m (c, b)) (Proc.devRef .tc main_v0) = _
  after_results

/-- The program's result after the host lines that follow the region: the region's array cut to its first two action
    rows and transposed. -/
theorem tail_v3 (c : Dev nD) :
    Pipeline.afterTail₀ cfgs (dats m) 0 (V0 m) [hostOps1] c main_v3
      = transpose S1048576x2 [1, 0] (extractStridedSlice S2x1048576 ![0, 0] ((dats m 0 c).arrAt 5 cfg0.N)
          Gen.slices_S8x1048576_S2x1048576_0_0) Gen.transposes_S2x1048576_S1048576x2_1_0 := by
  unfold Pipeline.afterTail₀
  show StableHlo.after hostOps1 _ (Proc.devRef .tc main_v3) = _
  after_results
  exact congrArg (fun z => transpose S1048576x2 [1, 0] (extractStridedSlice S2x1048576 ![0, 0] z
      Gen.slices_S8x1048576_S2x1048576_0_0) Gen.transposes_S2x1048576_S1048576x2_1_0)
    (Pipeline.withArrays_arr spec0 launch0.win.arr_inj c _ _ 5)

/-- The program's result: the network through 128 hidden units of the argument arrays. -/
theorem result_eq (c : Dev nD) :
    Pipeline.afterTail₀ cfgs (dats m) 0 (V0 m) [hostOps1] c main_v3
      = Cert.Net.net 128 (le_refl _) (m ((c : Thread nD τ).loc main_arg0)) (m ((c : Thread nD τ).loc main_arg1))
          (m ((c : Thread nD τ).loc main_arg2)) (m ((c : Thread nD τ).loc main_arg3)) (m ((c : Thread nD τ).loc main_arg4)) := by
  rw [tail_v3, final, V_v0, V_main_arg1, V_main_arg2, V_main_arg3, V_main_arg4]
  exact Cert.Net.lane128_eq _ _ _ _ _ _ _ _

/-- Every weakly fair execution of the reference's program terminates with the result at the network through 128 hidden
    units of the arguments, and the arguments as launched. -/
theorem run : θ_run defs (onTc (τ := τ) (main (F := Ideal))) ⟨m, fun _ => 0, ρ⟩ (fun r => ∀ c : Dev nD,
      r.2.mem ((c.tc : Thread nD τ).loc main_v3)
        = Cert.Net.net 128 (le_refl _) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.ReferenceIdeal.Val

end
-- ==== Proof.lean ====
/-
  Both programs compute the two-layer network y = max(x · w1ᵀ + b1, 0) · w2ᵀ + b2 over a batch of 1048576 rows of 4
  features, with the batch laid along the lanes: x is transposed, one tiled region does the arithmetic block of lanes by
  block, and the result is transposed back. The kernel keeps the first 64 of the 128 padded hidden units and the 2 real
  action rows and works in blocks of 65536 lanes; the reference keeps all 128 hidden units and 8 action rows, works in
  blocks of 4096 lanes, and cuts the 2 real action rows out afterwards. On the extended reals a change of float format is
  the identity and a matrix product into a zero accumulator is a plain sum, so entry (b, a) of either result is
      (∑ over the kept hidden units k of w2[a,k] · max((∑ over j of w1[k,j] · x[b,j]) + b1[k], 0)) + b2[a],
  the kernel's over k < 64 and the reference's over k < 128. The precondition says the padded hidden columns of w2 (from 50
  on) are zero; the terms the kernel drops are then 0 · (something) = 0, and the two sums are equal. No finiteness is used.

  The frames of the three programs are the generated ones; the ideal pass rewrote nothing, so the kernel's idealization is
  the program's own text.
-/
import proofs.«126951_g2000002316298219_pallasbulk_197_18_alg».proof.Defs
import proofs.«126951_g2000002316298219_pallasbulk_197_18_alg».proof.Proof.Gen.Kernel
import proofs.«126951_g2000002316298219_pallasbulk_197_18_alg».proof.Proof.Gen.Kernel.Frame
import proofs.«126951_g2000002316298219_pallasbulk_197_18_alg».proof.Proof.Gen.KernelIdeal
import proofs.«126951_g2000002316298219_pallasbulk_197_18_alg».proof.Proof.Gen.KernelIdeal.Frame
import proofs.«126951_g2000002316298219_pallasbulk_197_18_alg».proof.Proof.Gen.ReferenceIdeal
import proofs.«126951_g2000002316298219_pallasbulk_197_18_alg».proof.Proof.Gen.ReferenceIdeal.Frame
import proofs.«126951_g2000002316298219_pallasbulk_197_18_alg».proof.Proof.Gen.Pre_finite_inputs
import proofs.«126951_g2000002316298219_pallasbulk_197_18_alg».proof.Proof.Net
import proofs.«126951_g2000002316298219_pallasbulk_197_18_alg».proof.Proof.Padding
import proofs.«126951_g2000002316298219_pallasbulk_197_18_alg».proof.Proof.KernelValue
import proofs.«126951_g2000002316298219_pallasbulk_197_18_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The ideal pass rewrote no operation. -/
theorem preserves : Cert.preserves_Kernel_KernelIdeal := trivial

/-- The kernel ends at the network through 64 hidden units, the reference at the network through 128, of arguments
    that agree; under the precondition the hidden columns of w2 from 50 on are zero, so the two networks are one. -/
theorem algebraic : Cert.algebraic_KernelIdeal_ReferenceIdeal := by
  intro m ρ m' ρ' hpre hagree
  refine ⟨_, Cert.KernelIdeal.Val.run m ρ, ?_⟩
  refine (θ_run Cert.ReferenceIdeal.defs _ _).mono (fun _ h c => ⟨(h c).1.trans ?_, (h c).2⟩)
    (Cert.ReferenceIdeal.Val.run m' ρ')
  obtain ⟨e0, e1, e2, e3, e4⟩ := hagree c
  rw [e0, e1, e2, e3, e4]
  exact Cert.Net.net_128_eq_64 _ _ _ _ _
    (fun a k hk => Cert.Padding.w2_pad_zero _ _ _ _ _ (hpre c) a k (by omega))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
